-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S16x4096 .f32) (main_arg3 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S1024x1024 : Shape := ⟨2, ![1024, 1024]⟩
abbrev S16x1024 : Shape := ⟨2, ![16, 1024]⟩
abbrev S1024x16 : Shape := ⟨2, ![1024, 16]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .bf16⟩
  | .hbm, ⟨5, _⟩ => ⟨S4096x4096, .bf16⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .f32⟩
  | .local _ .vmem, ⟨5, _⟩ => ⟨S16x1024, .f32⟩
  | .local _ .vmem, ⟨6, _⟩ => ⟨S1024x16, .f32⟩
  | .local _ .vmem, ⟨7, _⟩ => ⟨S1024x16, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S8192x16 : Shape := ⟨2, ![8192, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S8192x16, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.Spec.lean ====
/-
  The specification. A linear layer with a rank-16 adapter: for x : [8192, 4096], a frozen weight w : [4096, 4096] and
  adapter factors a : [16, 4096], b : [4096, 16],

      out[n, o] = Σ_k x[n, k] · w[o, k]  +  (Σ_r (Σ_k x[n, k] · a[r, k]) · b[o, r]) · 2 ,

  every sum and product taken on the extended reals. The contraction over k (4096 long) may be cut into four
  consecutive stretches of 1024 and the four partial dot products added one after the other onto a zero: addition of
  extended reals is commutative and associative with unit 0, so the ordered chain ((((0 + s₀) + s₁) + s₂) + s₃) of the
  stretches' partial sums is the whole sum. No distributivity is used: the product with b and the factor 2 stay outside
  the chains on both sides, so the identity holds at the infinities too.
-/
import Idealize.ShloMosaic.PureOps.Ideal
import Idealize.ShloMosaic.Lib.ValueIdx
import Mathlib.Algebra.BigOperators.Fin
import Mathlib.Logic.Equiv.Fin.Basic

noncomputable section

open scoped BigOperators

namespace Cert.LoraSpec

open Idealize.ShloMosaic Idealize.ShloMosaic.ValueIdx

/-- A matrix of extended reals with `r` rows and `c` columns, indexed as the programs index their arrays. -/
abbrev Mat (r c : Nat) : Type := (⟨2, ![r, c]⟩ : Shape).Idx → EReal

/-- Column `c` of the `b`-th stretch of 1024 columns. -/
abbrev col (b : Fin 4) (c : Fin 1024) : Fin 4096 := ⟨1024 * b.val + c.val, by omega⟩

/-- Row `p` of the `I`-th tile of 1024 rows. -/
abbrev rowTile (I : Fin 8) (p : Fin 1024) : Fin 8192 := ⟨1024 * I.val + p.val, by omega⟩

/-- The (stretch, offset) pairs are the 4096 columns. -/
def colEquiv : Fin 4 × Fin 1024 ≃ Fin 4096 := finProdFinEquiv.trans (finCongr (by norm_num))

theorem colEquiv_apply (x : Fin 4 × Fin 1024) : colEquiv x = col x.1 x.2 := by
  apply Fin.ext
  show (finProdFinEquiv x).val = 1024 * x.1.val + x.2.val
  rw [finProdFinEquiv_apply_val]
  omega

/-- A sum over the 4096 columns is the sum over the four stretches of the sums over each stretch. -/
theorem sum_col {M : Type*} [AddCommMonoid M] (f : Fin 4096 → M) :
    ∑ k, f k = ∑ b : Fin 4, ∑ c : Fin 1024, f (col b c) := by
  rw [← Equiv.sum_comp colEquiv f, Fintype.sum_prod_type]
  exact Finset.sum_congr rfl fun b _ => Finset.sum_congr rfl fun c _ => by rw [colEquiv_apply]

/-- Four terms added one after the other onto a zero. -/
def chain (s : Fin 4 → EReal) : EReal := (((0 + s 0) + s 1) + s 2) + s 3

/-- The ordered chain is the sum of the four terms. -/
theorem chain_eq_sum (s : Fin 4 → EReal) : chain s = ∑ b, s b := by
  unfold chain
  rw [Fin.sum_univ_four, zero_add]

/-- The dot product of row `n` of `X` and row `o` of `Y` restricted to stretch `b` of the columns. -/
def stretchDot {r s : Nat} (X : Mat r 4096) (Y : Mat s 4096) (n : Fin r) (o : Fin s) (b : Fin 4) : EReal :=
  ∑ c : Fin 1024, X (ix2 n (col b c)) * Y (ix2 o (col b c))

/-- The whole dot product is the ordered chain of the four stretches' dot products. -/
theorem dot_eq_chain {r s : Nat} (X : Mat r 4096) (Y : Mat s 4096) (n : Fin r) (o : Fin s) :
    ∑ k : Fin 4096, X (ix2 n k) * Y (ix2 o k) = chain (stretchDot X Y n o) := by
  rw [chain_eq_sum, sum_col]
  rfl

/-- The scaling of the adapter branch: the word of the f32 `2.0`, read as an extended real. It is the same word in the
    kernel and in the reference, so its value is never needed. -/
abbrev scaling : EReal := Ideal.ofBits .f32 0x40000000#32

/-- One entry of the result. -/
def entry (X : Mat 8192 4096) (W : Mat 4096 4096) (A : Mat 16 4096) (B : Mat 4096 16) (n : Fin 8192) (o : Fin 4096) : EReal :=
  (∑ k : Fin 4096, X (ix2 n k) * W (ix2 o k))
    + (∑ r : Fin 16, (∑ k : Fin 4096, X (ix2 n k) * A (ix2 r k)) * B (ix2 o r)) * scaling

/-- The result array, as one function of the four argument arrays. -/
def result (X : Mat 8192 4096) (W : Mat 4096 4096) (A : Mat 16 4096) (B : Mat 4096 16) : Mat 8192 4096 :=
  fun i => entry X W A B ⟨(i 0).val, idx2_lt0 i⟩ ⟨(i 1).val, idx2_lt1 i⟩

/-- The entry with both contractions over k cut into four stretches, each accumulated in order onto a zero: the form in
    which a kernel that walks the contraction axis tile by tile computes it. -/
theorem entry_eq_chains (X : Mat 8192 4096) (W : Mat 4096 4096) (A : Mat 16 4096) (B : Mat 4096 16) (n : Fin 8192) (o : Fin 4096) :
    entry X W A B n o
      = chain (stretchDot X W n o) + (∑ r : Fin 16, chain (stretchDot X A n r) * B (ix2 o r)) * scaling := by
  unfold entry
  rw [dot_eq_chain]
  congr 2
  exact Finset.sum_congr rfl fun r _ => by rw [dot_eq_chain]

end Cert.LoraSpec

end
-- ==== Proof.RefValue.lean ====
/-
  The reference computes the specification. Its three contractions are read entry by entry as sums over the contracted
  coordinate — x against w, x against a, and that [8192, 16] product against b — then the scaling by the constant 2 and
  the final addition; written out at an index this is, term for term, the specification's entry.
-/
import proofs.«163087_j22780506538133_2_alg».proof.Proof.Gen.ReferenceIdeal.Read
import proofs.«163087_j22780506538133_2_alg».proof.Proof.Spec

noncomputable section

open scoped BigOperators

namespace Cert.ReferenceIdeal.RefValue

open Cert.ReferenceIdeal Cert.ReferenceIdeal.Read Idealize.ShloMosaic Idealize.ShloMosaic.ValueIdx Cert.LoraSpec

/-- Entry (n, k) of x, as the first contraction reads its left operand at result index `i = (n, o)`. -/
theorem lidx0 (i : S8192x4096.Idx) (k : Fin 4096) :
    lidx_main_v0 i k = ix2 (⟨(i 0).val, idx2_lt0 i⟩ : Fin 8192) k :=
  funext fun a => Fin.ext (by match a with | ⟨0, _⟩ => rfl | ⟨1, _⟩ => rfl)

/-- Entry (o, k) of w, its right operand there. -/
theorem ridx0 (i : S8192x4096.Idx) (k : Fin 4096) :
    ridx_main_v0 i k = ix2 (⟨(i 1).val, idx2_lt1 i⟩ : Fin 4096) k :=
  funext fun a => Fin.ext (by match a with | ⟨0, _⟩ => rfl | ⟨1, _⟩ => rfl)

/-- Entry (n, k) of x, as the second contraction reads its left operand at `j = (n, r)`. -/
theorem lidx1 (j : S8192x16.Idx) (k : Fin 4096) :
    lidx_main_v1 j k = ix2 (⟨(j 0).val, idx2_lt0 j⟩ : Fin 8192) k :=
  funext fun a => Fin.ext (by match a with | ⟨0, _⟩ => rfl | ⟨1, _⟩ => rfl)

/-- Entry (r, k) of a, its right operand there. -/
theorem ridx1 (j : S8192x16.Idx) (k : Fin 4096) :
    ridx_main_v1 j k = ix2 (⟨(j 1).val, idx2_lt1 j⟩ : Fin 16) k :=
  funext fun a => Fin.ext (by match a with | ⟨0, _⟩ => rfl | ⟨1, _⟩ => rfl)

/-- Entry (n, r) of the projected activations, the third contraction's left operand at `i = (n, o)`. -/
theorem lidx2 (i : S8192x4096.Idx) (r : Fin 16) :
    lidx_main_v2 i r = ix2 (⟨(i 0).val, idx2_lt0 i⟩ : Fin 8192) r :=
  funext fun a => Fin.ext (by match a with | ⟨0, _⟩ => rfl | ⟨1, _⟩ => rfl)

/-- Entry (o, r) of b, its right operand there. -/
theorem ridx2 (i : S8192x4096.Idx) (r : Fin 16) :
    ridx_main_v2 i r = ix2 (⟨(i 1).val, idx2_lt1 i⟩ : Fin 4096) r :=
  funext fun a => Fin.ext (by match a with | ⟨0, _⟩ => rfl | ⟨1, _⟩ => rfl)

/-- THE REFERENCE IS THE SPECIFICATION: its last operation's value, as a function of the four arguments, is `result`. -/
theorem ref_eq_result (x0 : (⟨S8192x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal)) :
    val_main_v5 (F := Ideal) x0 x1 x2 x3 = result x0 x1 x2 x3 := by
  funext i
  rw [val_main_v5_apply, val_main_v0_apply, val_main_v4_apply, val_main_v2_apply, val_main_v3_apply, val_main_cst_apply]
  simp only [val_main_v1_apply, lidx0, ridx0, lidx1, ridx1, lidx2, ridx2, Ideal.addf_def, Ideal.mulf_def, Ideal.ofBits_def]
  rfl

end Cert.ReferenceIdeal.RefValue

end
-- ==== Proof.Pieces.lean ====
/-
  What one run of the kernel body leaves behind, read as values, for any float instance.

  The body keeps two accumulators across the four steps along the contraction axis: `base` ([1024, 1024]) and `proj`
  ([1024, 16]). At a tile's first step it zeroes both and then adds this step's partial products; at the later steps it
  adds onto what the step before left; at the last step it also writes the output tile from the two updated accumulators
  and the tile of b. Each store covers its whole buffer, so what a buffer holds afterwards is the last store's value, and a
  load that follows a store reads that store's value back. In the payloads' names:

      step value of base : k0_pay4 x w acc        step value of proj : k0_pay5 x a acc
      zero blocks        : k0_pay1, k0_pay2       output tile         : k0_pay6 b proj' base'
-/
import proofs.«163087_j22780506538133_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S16x1024 .f32) (harg5 : arg5.IsWhole) (arg6 : Memref sig .tc .vmem S1024x16 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1024x16 .f32) (harg9 : arg9.IsWhole)
  (x0 : Vec F S1024x1024 .bf16) (x1 : Vec F S1024x1024 .bf16) (x2 : Vec F S16x1024 .f32) (x3 : Vec F S1024x16 .f32)
  (xs0 : Vec F S1024x1024 .f32) (xs1 : Vec F S1024x16 .f32)

/-- The zero offsets of a whole-buffer access, however spelt. -/
theorem hz : (![0, 0] : Fin 2 → Nat) = fun _ => 0 := funext fun a => by fin_cases a <;> rfl

/-! ## First step of a tile: both accumulators zeroed, then this step added -/

theorem base_first (hc0 : cond0_0 i) (hc1 : ¬cond0_1 i) :
    sout0_A_0 c i arg3 harg3 arg4 harg4 arg5 harg5 arg6 harg6 arg7 harg7 arg8 harg8 arg9 harg9 hc0 hc1 x0 x1 x2 x3 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

theorem proj_first (hc0 : cond0_0 i) (hc1 : ¬cond0_1 i) :
    sout0_A_1 c i arg3 harg3 arg4 harg4 arg5 harg5 arg6 harg6 arg7 harg7 arg8 harg8 arg9 harg9 hc0 hc1 x0 x1 x2 x3 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

/-! ## A middle step: this step added onto what the step before left -/

theorem base_middle (hc0 : ¬cond0_0 i) (hc1 : ¬cond0_1 i) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

theorem proj_middle (hc0 : ¬cond0_0 i) (hc1 : ¬cond0_1 i) :
    sout0_B_1 c i arg3 harg3 arg4 harg4 arg5 harg5 arg6 harg6 arg7 harg7 arg8 harg8 arg9 harg9 hc0 hc1 x0 x1 x2 x3 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

/-! ## The last step: the same update, and the output tile from the updated accumulators -/

theorem base_last (hc0 : ¬cond0_0 i) (hc1 : cond0_1 i) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

theorem proj_last (hc0 : ¬cond0_0 i) (hc1 : cond0_1 i) :
    sout0_C_1 c i arg3 harg3 arg4 harg4 arg5 harg5 arg6 harg6 arg7 harg7 arg8 harg8 arg9 harg9 hc0 hc1 x0 x1 x2 x3 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

theorem out_last (hc0 : ¬cond0_0 i) (hc1 : cond0_1 i) :
    out0_C_4 c i arg3 harg3 arg4 harg4 arg5 harg5 arg6 harg6 arg7 harg7 arg8 harg8 arg9 harg9 hc0 hc1 x0 x1 x2 x3 xs0 xs1 = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, harg3.read_unread, harg4.read_unread, harg5.read_unread, harg6.read_unread, harg8.read_unread, harg9.read_unread, View.ld_unit_zero (S := S1024x1024) hz, View.ld_unit_zero (S := S16x1024) hz, View.ld_unit_zero (S := S1024x16) hz]

end Cert.KernelIdeal.Pieces

end
-- ==== Proof.Tile.lean ====
/-
  One output tile, as a term, for any float instance. The grid walks the contraction axis innermost: the four consecutive
  points n, n+1, n+2, n+3 (n a multiple of 4) belong to one output tile. The first zeroes the two accumulators and adds its
  partial products, the next two add theirs, and the last adds its own and writes the tile. Unrolling what each point
  leaves in the accumulators over what the point before left gives the tile as four nested steps of each accumulator
  under the output formula.
-/
import proofs.«163087_j22780506538133_2_alg».proof.Proof.Pieces

set_option maxRecDepth 16384

noncomputable section

namespace Cert.KernelIdeal.Tile

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- At a tile's first point the accumulators hold this point's partial products added onto zero. -/
theorem accs_first (c : Dev nD) (n : ℕ) (h : n < cfg0.N) (h0 : n % 4 = 0) :
    (outsAt0 m c n h).2
      = (k0_pay4 (iblk m c 0 (⟨n, h⟩ : Fin cfg0.N)) (iblk m c 1 (⟨n, h⟩ : Fin cfg0.N)) k0_pay1, k0_pay5 (iblk m c 0 (⟨n, h⟩ : Fin cfg0.N)) (iblk m c 2 (⟨n, h⟩ : Fin cfg0.N)) k0_pay2) := by
  have h1 : ¬n % 4 = 3 := fun h3 => by omega
  rw [show outsAt0 m c n h = _ from outsAt0_A m c (⟨n, h⟩ : Fin cfg0.N) h0 h1]
  dsimp only
  exact congrArg₂ Prod.mk (base_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole cc0_scratch0) scM0_1 (Memref.isWhole_whole cc0_scratch1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) ((hcond0_0 (⟨n, h⟩ : Fin cfg0.N)).mpr h0) (fun hh => h1 ((hcond0_1 (⟨n, h⟩ : Fin cfg0.N)).mp hh))) (proj_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole cc0_scratch0) scM0_1 (Memref.isWhole_whole cc0_scratch1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) ((hcond0_0 (⟨n, h⟩ : Fin cfg0.N)).mpr h0) (fun hh => h1 ((hcond0_1 (⟨n, h⟩ : Fin cfg0.N)).mp hh)))

/-- At every later point of a tile the accumulators hold this point's partial products added onto what the point before
    left — at a middle point and at the last point alike. -/
theorem accs_next (c : Dev nD) (n : ℕ) (h : n + 1 < cfg0.N) (h0 : ¬(n + 1) % 4 = 0) :
    (outsAt0 m c (n + 1) h).2
      = (k0_pay4 (iblk m c 0 (⟨n + 1, h⟩ : Fin cfg0.N)) (iblk m c 1 (⟨n + 1, h⟩ : Fin cfg0.N)) (outsAt0 m c n (Nat.lt_of_succ_lt h)).2.1, k0_pay5 (iblk m c 0 (⟨n + 1, h⟩ : Fin cfg0.N)) (iblk m c 2 (⟨n + 1, h⟩ : Fin cfg0.N)) (outsAt0 m c n (Nat.lt_of_succ_lt h)).2.2) := by
  by_cases h1 : (n + 1) % 4 = 3
  · rw [show outsAt0 m c (n + 1) h = _ from outsAt0_C m c (⟨n + 1, h⟩ : Fin cfg0.N) h0 h1]
    simp only [Nat.add_sub_cancel]
    exact congrArg₂ Prod.mk (base_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) ((hcond0_1 (⟨n + 1, h⟩ : Fin cfg0.N)).mpr h1)) (proj_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) ((hcond0_1 (⟨n + 1, h⟩ : Fin cfg0.N)).mpr h1))
  · rw [show outsAt0 m c (n + 1) h = _ from outsAt0_B m c (⟨n + 1, h⟩ : Fin cfg0.N) h0 h1]
    simp only [Nat.add_sub_cancel]
    exact congrArg₂ Prod.mk (base_middle c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) (fun hh => h1 ((hcond0_1 (⟨n + 1, h⟩ : Fin cfg0.N)).mp hh))) (proj_middle c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) (fun hh => h1 ((hcond0_1 (⟨n + 1, h⟩ : Fin cfg0.N)).mp hh)))

/-- At a tile's last point the output's buffer holds the output formula of the b tile and the two accumulators as this
    same point leaves them. -/
theorem out_of_accs (c : Dev nD) (n : ℕ) (h : n + 1 < cfg0.N) (h1 : (n + 1) % 4 = 3) :
    (outsAt0 m c (n + 1) h).1
      = k0_pay6 (iblk m c 3 (⟨n + 1, h⟩ : Fin cfg0.N)) (outsAt0 m c (n + 1) h).2.2 (outsAt0 m c (n + 1) h).2.1 := by
  have h0 : ¬(n + 1) % 4 = 0 := fun h4 => by omega
  rw [show outsAt0 m c (n + 1) h = _ from outsAt0_C m c (⟨n + 1, h⟩ : Fin cfg0.N) h0 h1]
  simp only [Nat.add_sub_cancel]
  exact (out_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) ((hcond0_1 (⟨n + 1, h⟩ : Fin cfg0.N)).mpr h1)).trans
    (congrArg₂ (k0_pay6 (iblk m c 3 (⟨n + 1, h⟩ : Fin cfg0.N)))
      (proj_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) ((hcond0_1 (⟨n + 1, h⟩ : Fin cfg0.N)).mpr h1)).symm
      (base_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole cc0_scratch0) scM0_1 (Memref.isWhole_whole cc0_scratch1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2.1 (outsAt0 m c n (Nat.lt_of_succ_lt h)).2.2 (fun hh => h0 ((hcond0_0 (⟨n + 1, h⟩ : Fin cfg0.N)).mp hh)) ((hcond0_1 (⟨n + 1, h⟩ : Fin cfg0.N)).mpr h1)).symm)

/-- THE TILE: what the last of a tile's four points writes, as four nested steps of each accumulator. -/
theorem tile_term (c : Dev nD) (n : ℕ) (h : n + 1 + 1 + 1 < cfg0.N) (h0 : n % 4 = 0) :
    (outsAt0 m c (n + 1 + 1 + 1) h).1
      = k0_pay6 (iblk m c 3 ⟨n + 1 + 1 + 1, h⟩)
          (k0_pay5 (iblk m c 0 ⟨n + 1 + 1 + 1, h⟩) (iblk m c 2 ⟨n + 1 + 1 + 1, h⟩)
            (k0_pay5 (iblk m c 0 ⟨n + 1 + 1, Nat.lt_of_succ_lt h⟩) (iblk m c 2 ⟨n + 1 + 1, Nat.lt_of_succ_lt h⟩)
              (k0_pay5 (iblk m c 0 ⟨n + 1, Nat.lt_of_succ_lt (Nat.lt_of_succ_lt h)⟩) (iblk m c 2 ⟨n + 1, Nat.lt_of_succ_lt (Nat.lt_of_succ_lt h)⟩)
                (k0_pay5 (iblk m c 0 ⟨n, Nat.lt_of_succ_lt (Nat.lt_of_succ_lt (Nat.lt_of_succ_lt h))⟩) (iblk m c 2 ⟨n, Nat.lt_of_succ_lt (Nat.lt_of_succ_lt (Nat.lt_of_succ_lt h))⟩) k0_pay2))))
          (k0_pay4 (iblk m c 0 ⟨n + 1 + 1 + 1, h⟩) (iblk m c 1 ⟨n + 1 + 1 + 1, h⟩)
            (k0_pay4 (iblk m c 0 ⟨n + 1 + 1, Nat.lt_of_succ_lt h⟩) (iblk m c 1 ⟨n + 1 + 1, Nat.lt_of_succ_lt h⟩)
              (k0_pay4 (iblk m c 0 ⟨n + 1, Nat.lt_of_succ_lt (Nat.lt_of_succ_lt h)⟩) (iblk m c 1 ⟨n + 1, Nat.lt_of_succ_lt (Nat.lt_of_succ_lt h)⟩)
                (k0_pay4 (iblk m c 0 ⟨n, Nat.lt_of_succ_lt (Nat.lt_of_succ_lt (Nat.lt_of_succ_lt h))⟩) (iblk m c 1 ⟨n, Nat.lt_of_succ_lt (Nat.lt_of_succ_lt (Nat.lt_of_succ_lt h))⟩) k0_pay1)))) := by
  rw [out_of_accs m c (n + 1 + 1) h (by omega),
    accs_next m c (n + 1 + 1) h (by omega),
    accs_next m c (n + 1) (Nat.lt_of_succ_lt h) (by omega),
    accs_next m c n (Nat.lt_of_succ_lt (Nat.lt_of_succ_lt h)) (by omega),
    accs_first m c n (Nat.lt_of_succ_lt (Nat.lt_of_succ_lt (Nat.lt_of_succ_lt h))) h0]

end Cert.KernelIdeal.Tile

end
-- ==== Proof.Blocks.lean ====
/-
  Where each tile sits. The grid is 8 × 4 × 4 with the contraction axis innermost, so point s has row tile s / 16, column
  tile (s / 4) mod 4 and contraction step s mod 4. At point s the kernel sees
      rows [1024·(s/16), +1024) × columns [1024·(s mod 4), +1024) of x (narrowed to bf16 before the call: the identity here),
      rows [1024·((s/4) mod 4), +1024) × the same columns of w (likewise),
      all 16 rows × the same columns of a,           rows [1024·((s/4) mod 4), +1024) × all 16 columns of b,
  and writes rows [1024·(s/16), +1024) × columns [1024·((s/4) mod 4), +1024) of the result.
-/
import proofs.«163087_j22780506538133_2_alg».proof.Proof.Gen.KernelIdeal.Frame
import proofs.«163087_j22780506538133_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem Cert.LoraSpec

variable (m : (ℓ : Loc nD τ sig) → Buf (Elt Ideal) ℓ)

/-- The five windows' block indices at every point of the grid, in closed form. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = t.val / 16 ∧ win0_4.index t (1 : Fin 2) = t.val / 4 % 4 :=
  (by decide +kernel : ∀ t : Fin grid0.N, _)

/-- The row tile of point `s`. -/
def rowOf (s : Fin cfg0.N) : Fin 8 := ⟨s.val / 16, by have := s.isLt; have hN : cfg0.N = 128 := N_0; omega⟩
/-- The column tile of point `s`. -/
def colOf (s : Fin cfg0.N) : Fin 4 := ⟨s.val / 4 % 4, by omega⟩
/-- The contraction step of point `s`. -/
def stepOf (s : Fin cfg0.N) : Fin 4 := ⟨s.val % 4, by omega⟩

/-- The region finds x narrowed to bf16, which on extended reals is x itself. -/
theorem x_narrowed (c : Dev nD) (j : S8192x4096.Idx) : V m c main_v0 j = m ((c : Thread nD τ).loc main_arg0) j := by
  have e : (V m c main_v0 : S8192x4096.Idx → EReal)
      = truncf (F := Ideal) (φ := .f32) .bf16 (m ((c : Thread nD τ).loc main_arg0)) bitsLt_bf16_f32 := by
    dsimp only [Gen.V, Gen.hostOps0]; after_results
  exact congrFun e j

/-- The region finds w narrowed to bf16, which on extended reals is w itself. -/
theorem w_narrowed (c : Dev nD) (j : S4096x4096.Idx) : V m c main_v1 j = m ((c : Thread nD τ).loc main_arg1) j := by
  have e : (V m c main_v1 : S4096x4096.Idx → EReal)
      = truncf (F := Ideal) (φ := .f32) .bf16 (m ((c : Thread nD τ).loc main_arg1)) bitsLt_bf16_f32 := by
    dsimp only [Gen.V, Gen.hostOps0]; after_results
  exact congrFun e j

/-- The x tile of point `s`, entry (p, k). -/
theorem x_tile (c : Dev nD) (s : Fin cfg0.N) (p k : Fin 1024) :
    (iblk m c 0 s (ix2 p k) : EReal) = m ((c : Thread nD τ).loc main_arg0) (ix2 (rowTile (rowOf s) p) (col (stepOf s) k)) := by
  obtain ⟨e0, e1, -⟩ := idx_facts s
  unfold iblk
  rw [View.read_apply]
  show V m c main_v0 (((cfg0.win 0).blk s).view.emb (ix2 p k)) = _
  rw [x_narrowed]
  refine congrArg _ (funext fun a => Fin.ext ?_)
  match a with
  | ⟨0, _⟩ => show win0_0.index s (0 : Fin 2) * 1024 + 1 * p.val = 1024 * (s.val / 16) + p.val; omega
  | ⟨1, _⟩ => show win0_0.index s (1 : Fin 2) * 1024 + 1 * k.val = 1024 * (s.val % 4) + k.val; omega

/-- The w tile of point `s`, entry (q, k). -/
theorem w_tile (c : Dev nD) (s : Fin cfg0.N) (q k : Fin 1024) :
    (iblk m c 1 s (ix2 q k) : EReal) = m ((c : Thread nD τ).loc main_arg1) (ix2 (col (colOf s) q) (col (stepOf s) k)) := by
  obtain ⟨-, -, e0, e1, -⟩ := idx_facts s
  unfold iblk
  rw [View.read_apply]
  show V m c main_v1 (((cfg0.win 1).blk s).view.emb (ix2 q k)) = _
  rw [w_narrowed]
  refine congrArg _ (funext fun a => Fin.ext ?_)
  match a with
  | ⟨0, _⟩ => show win0_1.index s (0 : Fin 2) * 1024 + 1 * q.val = 1024 * (s.val / 4 % 4) + q.val; omega
  | ⟨1, _⟩ => show win0_1.index s (1 : Fin 2) * 1024 + 1 * k.val = 1024 * (s.val % 4) + k.val; omega

/-- The a tile of point `s`, entry (r, k). -/
theorem a_tile (c : Dev nD) (s : Fin cfg0.N) (r : Fin 16) (k : Fin 1024) :
    (iblk m c 2 s (ix2 r k) : EReal) = m ((c : Thread nD τ).loc main_arg2) (ix2 r (col (stepOf s) k)) := by
  obtain ⟨-, -, -, -, e0, e1, -⟩ := idx_facts s
  unfold iblk
  rw [View.read_apply]
  show V m c main_arg2 (((cfg0.win 2).blk s).view.emb (ix2 r k)) = _
  rw [V_main_arg2]
  refine congrArg _ (funext fun a => Fin.ext ?_)
  match a with
  | ⟨0, _⟩ => show win0_2.index s (0 : Fin 2) * 16 + 1 * r.val = r.val; omega
  | ⟨1, _⟩ => show win0_2.index s (1 : Fin 2) * 1024 + 1 * k.val = 1024 * (s.val % 4) + k.val; omega

/-- The b tile of point `s`, entry (q, r). -/
theorem b_tile (c : Dev nD) (s : Fin cfg0.N) (q : Fin 1024) (r : Fin 16) :
    (iblk m c 3 s (ix2 q r) : EReal) = m ((c : Thread nD τ).loc main_arg3) (ix2 (col (colOf s) q) r) := by
  obtain ⟨-, -, -, -, -, -, e0, e1, -⟩ := idx_facts s
  unfold iblk
  rw [View.read_apply]
  show V m c main_arg3 (((cfg0.win 3).blk s).view.emb (ix2 q r)) = _
  rw [V_main_arg3]
  refine congrArg _ (funext fun a => Fin.ext ?_)
  match a with
  | ⟨0, _⟩ => show win0_3.index s (0 : Fin 2) * 1024 + 1 * q.val = 1024 * (s.val / 4 % 4) + q.val; omega
  | ⟨1, _⟩ => show win0_3.index s (1 : Fin 2) * 16 + 1 * r.val = r.val; omega

end Cert.KernelIdeal.Blocks

end
-- ==== Proof.Payload.lean ====
/-
  The body's arithmetic at one entry, on the extended reals. A matrix product into a zero accumulator is, at (p, q), the
  sum over the contracted coordinate of the operands' products; a change of float format is the identity; so

      (base step)   k0_pay4 x w acc (p, q)  =  acc (p, q) + Σ_k x (p, k) · w (q, k)                    k < 1024
      (proj step)   k0_pay5 x a acc (p, r)  =  acc (p, r) + Σ_k x (p, k) · a (r, k)                    k < 1024
      (output)      k0_pay6 b proj base (p, q) = base (p, q) + (Σ_r proj (p, r) · b (q, r)) · 2         r < 16

  and the two zero blocks read 0 everywhere.
-/
import proofs.«163087_j22780506538133_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ### x tile against w tile: [1024, 1024] × [1024, 1024]ᵀ -/

theorem dotXW_lhs0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem dotXW_lhs1 (j : S1024x1024.Idx) (q : dot_S1024x1024_S1024x1024_S1024x1024_1_1_0_0_n_n.contr.Idx) : (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem dotXW_rhs0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem dotXW_rhs1 (j : S1024x1024.Idx) (q : dot_S1024x1024_S1024x1024_S1024x1024_1_1_0_0_n_n.contr.Idx) : (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Into a zero accumulator the product at (p, q) is the sum over the contracted coordinate of left (p, k) times right (q, k). -/
theorem dotXW_apply (φ₁ φ₂ : FTy) (l : FVec Ideal S1024x1024 φ₁) (r : FVec Ideal S1024x1024 φ₂) (p : Fin 1024) (q : Fin 1024) :
    FloatOps.matmul dot_S1024x1024_S1024x1024_S1024x1024_1_1_0_0_n_n none l r (constant S1024x1024 .f32 0x00000000#32) (ix2 p q)
      = ∑ k : Fin 1024, l (ix2 p k) * r (ix2 q k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact dotXW_lhs0 _ _
    | ⟨1, _⟩ => exact (dotXW_lhs1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact dotXW_rhs0 _ _
    | ⟨1, _⟩ => exact (dotXW_rhs1 _ _).trans hk)
  rw [el, er]

/-! ### x tile against a tile: [1024, 1024] × [16, 1024]ᵀ -/

theorem dotXA_lhs0 (j : S1024x16.Idx) (q : dot_S1024x1024_S16x1024_S1024x16_1_1_0_0_n_n.contr.Idx) : (dot_S1024x1024_S16x1024_S1024x16_1_1_0_0_n_n.lhsIdx j q 0).val = (j 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem dotXA_lhs1 (j : S1024x16.Idx) (q : dot_S1024x1024_S16x1024_S1024x16_1_1_0_0_n_n.contr.Idx) : (dot_S1024x1024_S16x1024_S1024x16_1_1_0_0_n_n.lhsIdx j q 1).val = (q ⟨0, by decide⟩).val :=
  dot_S1024x1024_S16x1024_S1024x16_1_1_0_0_n_n.lhsIdx_val_of_single rfl j q
theorem dotXA_rhs0 (j : S1024x16.Idx) (q : dot_S1024x1024_S16x1024_S1024x16_1_1_0_0_n_n.contr.Idx) : (dot_S1024x1024_S16x1024_S1024x16_1_1_0_0_n_n.rhsIdx j q 0).val = (j 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem dotXA_rhs1 (j : S1024x16.Idx) (q : dot_S1024x1024_S16x1024_S1024x16_1_1_0_0_n_n.contr.Idx) : (dot_S1024x1024_S16x1024_S1024x16_1_1_0_0_n_n.rhsIdx j q 1).val = (q ⟨0, by decide⟩).val :=
  dot_S1024x1024_S16x1024_S1024x16_1_1_0_0_n_n.rhsIdx_val_of_single rfl j q

/-- Into a zero accumulator the product at (p, q) is the sum over the contracted coordinate of left (p, k) times right (q, k). -/
theorem dotXA_apply (φ₁ φ₂ : FTy) (l : FVec Ideal S1024x1024 φ₁) (r : FVec Ideal S16x1024 φ₂) (p : Fin 1024) (q : Fin 16) :
    FloatOps.matmul dot_S1024x1024_S16x1024_S1024x16_1_1_0_0_n_n none l r (constant S1024x16 .f32 0x00000000#32) (ix2 p q)
      = ∑ k : Fin 1024, l (ix2 p k) * r (ix2 q k) := by
  rw [Ideal.matmul_constant_zero_apply, ← Equiv.sum_comp (contrEquiv1 dot_S1024x1024_S16x1024_S1024x16_1_1_0_0_n_n 1024 rfl rfl).symm]
  refine Finset.sum_congr rfl fun k _ => ?_
  have hk := contrEquiv1_symm_val dot_S1024x1024_S16x1024_S1024x16_1_1_0_0_n_n 1024 rfl rfl k
  have el : dot_S1024x1024_S16x1024_S1024x16_1_1_0_0_n_n.lhsIdx (ix2 p q) ((contrEquiv1 dot_S1024x1024_S16x1024_S1024x16_1_1_0_0_n_n 1024 rfl rfl).symm k) = ix2 p k := funext fun a => Fin.ext (by
    match a with
    | ⟨0, _⟩ => exact dotXA_lhs0 _ _
    | ⟨1, _⟩ => exact (dotXA_lhs1 _ _).trans hk)
  have er : dot_S1024x1024_S16x1024_S1024x16_1_1_0_0_n_n.rhsIdx (ix2 p q) ((contrEquiv1 dot_S1024x1024_S16x1024_S1024x16_1_1_0_0_n_n 1024 rfl rfl).symm k) = ix2 q k := funext fun a => Fin.ext (by
    match a with
    | ⟨0, _⟩ => exact dotXA_rhs0 _ _
    | ⟨1, _⟩ => exact (dotXA_rhs1 _ _).trans hk)
  rw [el, er]

/-! ### projected tile against b tile: [1024, 16] × [1024, 16]ᵀ -/

theorem dotPB_lhs0 (j : S1024x1024.Idx) (q : dot_S1024x16_S1024x16_S1024x1024_1_1_0_0_n_n.contr.Idx) : (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem dotPB_lhs1 (j : S1024x1024.Idx) (q : dot_S1024x16_S1024x16_S1024x1024_1_1_0_0_n_n.contr.Idx) : (dot_S1024x16_S1024x16_S1024x1024_1_1_0_0_n_n.lhsIdx j q 1).val = (q ⟨0, by decide⟩).val :=
  dot_S1024x16_S1024x16_S1024x1024_1_1_0_0_n_n.lhsIdx_val_of_single rfl j q
theorem dotPB_rhs0 (j : S1024x1024.Idx) (q : dot_S1024x16_S1024x16_S1024x1024_1_1_0_0_n_n.contr.Idx) : (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem dotPB_rhs1 (j : S1024x1024.Idx) (q : dot_S1024x16_S1024x16_S1024x1024_1_1_0_0_n_n.contr.Idx) : (dot_S1024x16_S1024x16_S1024x1024_1_1_0_0_n_n.rhsIdx j q 1).val = (q ⟨0, by decide⟩).val :=
  dot_S1024x16_S1024x16_S1024x1024_1_1_0_0_n_n.rhsIdx_val_of_single rfl j q

/-- Into a zero accumulator the product at (p, q) is the sum over the contracted coordinate of left (p, k) times right (q, k). -/
theorem dotPB_apply (φ₁ φ₂ : FTy) (l : FVec Ideal S1024x16 φ₁) (r : FVec Ideal S1024x16 φ₂) (p : Fin 1024) (q : Fin 1024) :
    FloatOps.matmul dot_S1024x16_S1024x16_S1024x1024_1_1_0_0_n_n none l r (constant S1024x1024 .f32 0x00000000#32) (ix2 p q)
      = ∑ k : Fin 16, l (ix2 p k) * r (ix2 q k) := by
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact dotPB_lhs0 _ _
    | ⟨1, _⟩ => exact (dotPB_lhs1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact dotPB_rhs0 _ _
    | ⟨1, _⟩ => exact (dotPB_rhs1 _ _).trans hk)
  rw [el, er]

/-! ## The payloads at an entry -/

/-- The zero block stored into `base` at a tile's first step reads 0. -/
theorem zero_base_apply (j : S1024x1024.Idx) : k0_pay1 (F := Ideal) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- The zero block stored into `proj` at a tile's first step reads 0. -/
theorem zero_proj_apply (j : S1024x16.Idx) : k0_pay2 (F := Ideal) j = 0 := by
  show shapeCast S1024x16 (broadcast S1024x16 (Scalar.ofBits (F := Ideal) .f32 0x00000000#32)) shapeCasts_S1024x16_S1024x16 j = 0
  rw [shapeCast_self]
  exact Ideal.ofBits_zero_f32

/-- One step of `base`: the accumulator plus this step's partial dot product of the x and w tiles. -/
theorem base_step_apply (x w : Vec Ideal S1024x1024 .bf16) (acc : Vec Ideal S1024x1024 .f32) (p q : Fin 1024) :
    k0_pay4 x w acc (ix2 p q) = acc (ix2 p q) + ∑ k : Fin 1024, x (ix2 p k) * w (ix2 q k) := by
  unfold k0_pay4 k0_pay3
  simp only [shapeCast_self]
  exact congrArg (acc (ix2 p q) + ·) (dotXW_apply .bf16 .bf16 x w p q)

/-- One step of `proj`: the accumulator plus this step's partial dot product of the x and a tiles (the narrowing of a to
    bf16 is the identity on extended reals). -/
theorem proj_step_apply (x : Vec Ideal S1024x1024 .bf16) (a : Vec Ideal S16x1024 .f32) (acc : Vec Ideal S1024x16 .f32)
    (p : Fin 1024) (r : Fin 16) :
    k0_pay5 x a acc (ix2 p r) = acc (ix2 p r) + ∑ k : Fin 1024, x (ix2 p k) * a (ix2 r k) := by
  unfold k0_pay5 k0_pay3
  simp only [shapeCast_self]
  exact congrArg (acc (ix2 p r) + ·) (dotXA_apply .bf16 .bf16 x (truncf (F := Ideal) (φ := .f32) .bf16 a bitsLt_bf16_f32) p r)

/-- The output tile: `base` plus the projected tile against the b tile, scaled by the constant 2. -/
theorem out_apply (b : Vec Ideal S1024x16 .f32) (proj : Vec Ideal S1024x16 .f32) (base : Vec Ideal S1024x1024 .f32) (p q : Fin 1024) :
    k0_pay6 b proj base (ix2 p q)
      = base (ix2 p q) + (∑ r : Fin 16, proj (ix2 p r) * b (ix2 q r)) * Ideal.ofBits .f32 0x40000000#32 := by
  unfold k0_pay6
  exact congrArg (fun z : EReal => base (ix2 p q) + z * Ideal.ofBits .f32 0x40000000#32) (dotPB_apply .f32 .f32 proj b p q)

end Cert.KernelIdeal.Payload

end
-- ==== Proof.KernelValue.lean ====
/-
  The kernel computes the specification. At the last of a tile's four points the output buffer holds, entry by entry,

      ((((0 + d₀) + d₁) + d₂) + d₃) + (Σ_r ((((0 + e₀ r) + e₁ r) + e₂ r) + e₃ r) · b (q, r)) · 2 ,

  d_s the partial dot product of the x and w tiles of step s, e_s r that of the x and a tiles. Read through the tiles'
  positions these are the stretches of the specification's two contractions, so the tile is the specification's entries on
  its rows and columns. The 8 × 4 output tiles, each written once at its last point, cover the result array: after the run
  the array is the specification.
-/
import proofs.«163087_j22780506538133_2_alg».proof.Proof.Tile
import proofs.«163087_j22780506538133_2_alg».proof.Proof.Blocks
import proofs.«163087_j22780506538133_2_alg».proof.Proof.Payload
import proofs.«163087_j22780506538133_2_alg».proof.Proof.Gen.KernelIdeal.Value

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx Idealize.SL.Sem
open Idealize.ShloMosaic.Pipeline (Dat)
open Cert.LoraSpec Cert.KernelIdeal.Payload Cert.KernelIdeal.Blocks Cert.KernelIdeal.Tile

variable (m : (ℓ : Loc nD τ sig) → Buf (Elt Ideal) ℓ) (ρ : Dev nD → PrngReg)

/-- Four nested steps of each accumulator under the output formula, at entry (p, q): the two ordered chains of partial
    dot products, the second contracted with the b tile and scaled. -/
theorem tile_value (X0 X1 X2 X3 W0 W1 W2 W3 : Vec Ideal S1024x1024 .bf16) (A0 A1 A2 A3 : Vec Ideal S16x1024 .f32)
    (Bt : Vec Ideal S1024x16 .f32) (p q : Fin 1024) :
    k0_pay6 Bt (k0_pay5 X3 A3 (k0_pay5 X2 A2 (k0_pay5 X1 A1 (k0_pay5 X0 A0 (k0_pay2 (F := Ideal))))))
        (k0_pay4 X3 W3 (k0_pay4 X2 W2 (k0_pay4 X1 W1 (k0_pay4 X0 W0 (k0_pay1 (F := Ideal)))))) (ix2 p q)
      = ((((0 + ∑ k : Fin 1024, X0 (ix2 p k) * W0 (ix2 q k)) + ∑ k : Fin 1024, X1 (ix2 p k) * W1 (ix2 q k))
            + ∑ k : Fin 1024, X2 (ix2 p k) * W2 (ix2 q k)) + ∑ k : Fin 1024, X3 (ix2 p k) * W3 (ix2 q k))
        + (∑ r : Fin 16, ((((0 + ∑ k : Fin 1024, X0 (ix2 p k) * A0 (ix2 r k)) + ∑ k : Fin 1024, X1 (ix2 p k) * A1 (ix2 r k))
            + ∑ k : Fin 1024, X2 (ix2 p k) * A2 (ix2 r k)) + ∑ k : Fin 1024, X3 (ix2 p k) * A3 (ix2 r k)) * Bt (ix2 q r))
          * Ideal.ofBits .f32 0x40000000#32 := by
  rw [out_apply, base_step_apply, base_step_apply, base_step_apply, base_step_apply, zero_base_apply]
  simp only [proj_step_apply, zero_proj_apply]

/-- THE TILE IS THE SPECIFICATION on its rows and columns: entry (p, q) of what the last of the tile's four points writes
    is the specification's entry at row p of the point's row tile and column q of its column tile. -/
theorem tile_entry (c : Dev nD) (n : ℕ) (h : n + 1 + 1 + 1 < cfg0.N) (h0 : n % 4 = 0) (p q : Fin 1024) :
    (outsAt0 m c (n + 1 + 1 + 1) h).1 (ix2 p q)
      = entry (m ((c : Thread nD τ).loc main_arg0)) (m ((c : Thread nD τ).loc main_arg1)) (m ((c : Thread nD τ).loc main_arg2)) (m ((c : Thread nD τ).loc main_arg3)) (rowTile (rowOf (⟨n + 1 + 1 + 1, h⟩ : Fin cfg0.N)) p) (col (colOf (⟨n + 1 + 1 + 1, h⟩ : Fin cfg0.N)) q) := by
  have hN : cfg0.N = 128 := N_0
  rw [tile_term m c n h h0]
  refine (tile_value (iblk m c 0 (⟨n, Nat.lt_of_succ_lt (Nat.lt_of_succ_lt (Nat.lt_of_succ_lt h))⟩ : Fin cfg0.N)) (iblk m c 0 (⟨n + 1, Nat.lt_of_succ_lt (Nat.lt_of_succ_lt h)⟩ : Fin cfg0.N)) (iblk m c 0 (⟨n + 1 + 1, Nat.lt_of_succ_lt h⟩ : Fin cfg0.N)) (iblk m c 0 (⟨n + 1 + 1 + 1, h⟩ : Fin cfg0.N))
    (iblk m c 1 (⟨n, Nat.lt_of_succ_lt (Nat.lt_of_succ_lt (Nat.lt_of_succ_lt h))⟩ : Fin cfg0.N)) (iblk m c 1 (⟨n + 1, Nat.lt_of_succ_lt (Nat.lt_of_succ_lt h)⟩ : Fin cfg0.N)) (iblk m c 1 (⟨n + 1 + 1, Nat.lt_of_succ_lt h⟩ : Fin cfg0.N)) (iblk m c 1 (⟨n + 1 + 1 + 1, h⟩ : Fin cfg0.N))
    (iblk m c 2 (⟨n, Nat.lt_of_succ_lt (Nat.lt_of_succ_lt (Nat.lt_of_succ_lt h))⟩ : Fin cfg0.N)) (iblk m c 2 (⟨n + 1, Nat.lt_of_succ_lt (Nat.lt_of_succ_lt h)⟩ : Fin cfg0.N)) (iblk m c 2 (⟨n + 1 + 1, Nat.lt_of_succ_lt h⟩ : Fin cfg0.N)) (iblk m c 2 (⟨n + 1 + 1 + 1, h⟩ : Fin cfg0.N))
    (iblk m c 3 (⟨n + 1 + 1 + 1, h⟩ : Fin cfg0.N)) p q).trans ?_
  have r0 : rowOf (⟨n, Nat.lt_of_succ_lt (Nat.lt_of_succ_lt (Nat.lt_of_succ_lt h))⟩ : Fin cfg0.N) = rowOf (⟨n + 1 + 1 + 1, h⟩ : Fin cfg0.N) := Fin.ext (by show n / 16 = (n + 1 + 1 + 1) / 16; omega)
  have r1 : rowOf (⟨n + 1, Nat.lt_of_succ_lt (Nat.lt_of_succ_lt h)⟩ : Fin cfg0.N) = rowOf (⟨n + 1 + 1 + 1, h⟩ : Fin cfg0.N) := Fin.ext (by show (n + 1) / 16 = (n + 1 + 1 + 1) / 16; omega)
  have r2 : rowOf (⟨n + 1 + 1, Nat.lt_of_succ_lt h⟩ : Fin cfg0.N) = rowOf (⟨n + 1 + 1 + 1, h⟩ : Fin cfg0.N) := Fin.ext (by show (n + 1 + 1) / 16 = (n + 1 + 1 + 1) / 16; omega)
  have c0 : colOf (⟨n, Nat.lt_of_succ_lt (Nat.lt_of_succ_lt (Nat.lt_of_succ_lt h))⟩ : Fin cfg0.N) = colOf (⟨n + 1 + 1 + 1, h⟩ : Fin cfg0.N) := Fin.ext (by show n / 4 % 4 = (n + 1 + 1 + 1) / 4 % 4; omega)
  have c1 : colOf (⟨n + 1, Nat.lt_of_succ_lt (Nat.lt_of_succ_lt h)⟩ : Fin cfg0.N) = colOf (⟨n + 1 + 1 + 1, h⟩ : Fin cfg0.N) := Fin.ext (by show (n + 1) / 4 % 4 = (n + 1 + 1 + 1) / 4 % 4; omega)
  have c2 : colOf (⟨n + 1 + 1, Nat.lt_of_succ_lt h⟩ : Fin cfg0.N) = colOf (⟨n + 1 + 1 + 1, h⟩ : Fin cfg0.N) := Fin.ext (by show (n + 1 + 1) / 4 % 4 = (n + 1 + 1 + 1) / 4 % 4; omega)
  have s0 : stepOf (⟨n, Nat.lt_of_succ_lt (Nat.lt_of_succ_lt (Nat.lt_of_succ_lt h))⟩ : Fin cfg0.N) = 0 := Fin.ext (by show n % 4 = 0; omega)
  have s1 : stepOf (⟨n + 1, Nat.lt_of_succ_lt (Nat.lt_of_succ_lt h)⟩ : Fin cfg0.N) = 1 := Fin.ext (by show (n + 1) % 4 = 1; omega)
  have s2 : stepOf (⟨n + 1 + 1, Nat.lt_of_succ_lt h⟩ : Fin cfg0.N) = 2 := Fin.ext (by show (n + 1 + 1) % 4 = 2; omega)
  have s3 : stepOf (⟨n + 1 + 1 + 1, h⟩ : Fin cfg0.N) = 3 := Fin.ext (by show (n + 1 + 1 + 1) % 4 = 3; omega)
  rw [entry_eq_chains]
  simp only [x_tile, w_tile, a_tile, b_tile, r0, r1, r2, c0, c1, c2, s0, s1, s2, s3]
  rfl

/-- The same at any index of the tile. -/
theorem tile_entry_at (c : Dev nD) (n : ℕ) (h : n + 1 + 1 + 1 < cfg0.N) (h0 : n % 4 = 0) (y : S1024x1024.Idx) :
    (outsAt0 m c (n + 1 + 1 + 1) h).1 y
      = entry (m ((c : Thread nD τ).loc main_arg0)) (m ((c : Thread nD τ).loc main_arg1)) (m ((c : Thread nD τ).loc main_arg2)) (m ((c : Thread nD τ).loc main_arg3)) (rowTile (rowOf (⟨n + 1 + 1 + 1, h⟩ : Fin cfg0.N)) ⟨(y 0).val, idx2_lt0 y⟩) (col (colOf (⟨n + 1 + 1 + 1, h⟩ : Fin cfg0.N)) ⟨(y 1).val, idx2_lt1 y⟩) := by
  obtain ⟨p, q, rfl⟩ : ∃ (p : Fin 1024) (q : Fin 1024), y = ix2 p q := ⟨y 0, y 1, eq_ix2 y⟩
  exact tile_entry m c n h h0 p q

/-- WHAT A WRITING POINT WRITES BACK is its tile of the specification. -/
theorem flushed_eq (c : Dev nD) (t : Fin cfg0.N) (hf : (cfg0.win 4).flush t = true) :
    (dats m 0 c).flushed 4 t = ((cfg0.win 4).blk t).view.read (Elt Ideal) (result (m ((c : Thread nD τ).loc main_arg0)) (m ((c : Thread nD τ).loc main_arg1)) (m ((c : Thread nD τ).loc main_arg2)) (m ((c : Thread nD τ).loc main_arg3))) := by
  have h3 : t.val % 4 = 3 := (flush0_4 t).mp hf
  obtain ⟨tv, ht⟩ := t
  obtain ⟨n, rfl⟩ : ∃ n, tv = n + 1 + 1 + 1 := ⟨tv - 3, by dsimp only at h3; omega⟩
  have hn0 : n % 4 = 0 := by dsimp only at h3; omega
  obtain ⟨-, -, -, -, -, -, -, -, e0, e1⟩ := idx_facts (⟨n + 1 + 1 + 1, ht⟩ : Fin cfg0.N)
  rw [Value.flushed4]
  funext j
  refine (tile_entry_at m c n ht hn0 j).trans ?_
  rw [View.read_apply]
  show _ = result (m ((c : Thread nD τ).loc main_arg0)) (m ((c : Thread nD τ).loc main_arg1)) (m ((c : Thread nD τ).loc main_arg2)) (m ((c : Thread nD τ).loc main_arg3)) (((cfg0.win 4).blk (⟨n + 1 + 1 + 1, ht⟩ : Fin cfg0.N)).view.emb j)
  unfold result
  refine congrArg₂ (entry (m ((c : Thread nD τ).loc main_arg0)) (m ((c : Thread nD τ).loc main_arg1)) (m ((c : Thread nD τ).loc main_arg2)) (m ((c : Thread nD τ).loc main_arg3))) (Fin.ext ?_) (Fin.ext ?_)
  · show 1024 * ((n + 1 + 1 + 1) / 16) + (j 0).val = win0_4.index (⟨n + 1 + 1 + 1, ht⟩ : Fin cfg0.N) (0 : Fin 2) * 1024 + 1 * (j 0).val
    rw [e0]; dsimp only; omega
  · show 1024 * ((n + 1 + 1 + 1) / 4 % 4) + (j 1).val = win0_4.index (⟨n + 1 + 1 + 1, ht⟩ : Fin cfg0.N) (1 : Fin 2) * 1024 + 1 * (j 1).val
    rw [e1]; dsimp only; omega

/-- An index of the result array is in point `t`'s tile iff each coordinate is in the tile's range on its axis. -/
theorem mem_tile (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every index of the result array is in the tile of a writing point: row tile i₀ / 1024, column tile i₁ / 1024, last
    contraction step. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  have hb : 16 * ((i 0).val / 1024) + 4 * ((i 1).val / 1024) + 3 < cfg0.N := by omega
  refine ⟨⟨16 * ((i 0).val / 1024) + 4 * ((i 1).val / 1024) + 3, hb⟩, (flush0_4 _).mpr (by dsimp only; omega), ?_⟩
  obtain ⟨-, -, -, -, -, -, -, -, e0, e1⟩ := idx_facts (⟨16 * ((i 0).val / 1024) + 4 * ((i 1).val / 1024) + 3, hb⟩ : Fin cfg0.N)
  rw [mem_tile]
  intro a
  match a with
  | ⟨0, _⟩ =>
    show win0_4.index (⟨16 * ((i 0).val / 1024) + 4 * ((i 1).val / 1024) + 3, hb⟩ : Fin cfg0.N) (0 : Fin 2) * 1024 ≤ (i 0).val
      ∧ (i 0).val < win0_4.index (⟨16 * ((i 0).val / 1024) + 4 * ((i 1).val / 1024) + 3, hb⟩ : Fin cfg0.N) (0 : Fin 2) * 1024 + 1024
    rw [e0]; dsimp only; omega
  | ⟨1, _⟩ =>
    show win0_4.index (⟨16 * ((i 0).val / 1024) + 4 * ((i 1).val / 1024) + 3, hb⟩ : Fin cfg0.N) (1 : Fin 2) * 1024 ≤ (i 1).val
      ∧ (i 1).val < win0_4.index (⟨16 * ((i 0).val / 1024) + 4 * ((i 1).val / 1024) + 3, hb⟩ : Fin cfg0.N) (1 : Fin 2) * 1024 + 1024
    rw [e1]; dsimp only; omega

/-- THE RESULT ARRAY after the run is the specification of the four arguments. -/
theorem final (c : Dev nD) : (dats m 0 c).arrAt 4 cfg0.N = result (m ((c : Thread nD τ).loc main_arg0)) (m ((c : Thread nD τ).loc main_arg1)) (m ((c : Thread nD τ).loc main_arg2)) (m ((c : Thread nD τ).loc main_arg3)) :=
  (dats m 0 c).arrAt_eq_of_cover 4 (result (m ((c : Thread nD τ).loc main_arg0)) (m ((c : Thread nD τ).loc main_arg1)) (m ((c : Thread nD τ).loc main_arg2)) (m ((c : Thread nD τ).loc main_arg3))) (fun t hf => flushed_eq m c t hf) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.lean ====
/-
  A linear layer with a rank-16 adapter, out = x·wᵀ + 2·((x·aᵀ)·bᵀ), as a tiled kernel against its plain reference.

  The kernel walks an 8 × 4 × 4 grid: 1024-row tiles of x, 1024-row tiles of w and b, and four 1024-long stretches of the
  contraction axis, innermost. It accumulates x·wᵀ and x·aᵀ stretch by stretch in two carried buffers, starting each tile
  from zero, and at a tile's last stretch writes base + 2·(proj·bᵀ). The reference takes the three contractions whole.
  On the extended reals a sum cut into consecutive stretches and added in order onto zero is the whole sum (addition is
  commutative and associative with unit 0), a change of float format is the identity, and the factor 2 is one and the same
  word in both programs — so the two results agree entry by entry, at every input, the infinities included: the
  finiteness precondition is not used.

  Modules: Spec (the result as one function of the arguments, and the stretch identity), RefValue (the reference is
  it), Pieces and Tile (what the kernel's four points per tile leave, as a term), Payload (that term's arithmetic at an
  entry), Blocks (where each tile sits), KernelValue (the kernel's result array is the specification).
-/
import proofs.«163087_j22780506538133_2_alg».proof.Defs
import proofs.«163087_j22780506538133_2_alg».proof.Proof.Gen.Kernel
import proofs.«163087_j22780506538133_2_alg».proof.Proof.Gen.Kernel.Skeleton
import proofs.«163087_j22780506538133_2_alg».proof.Proof.Gen.Kernel.Launch
import proofs.«163087_j22780506538133_2_alg».proof.Proof.Gen.Kernel.Points
import proofs.«163087_j22780506538133_2_alg».proof.Proof.Gen.Kernel.Frame
import proofs.«163087_j22780506538133_2_alg».proof.Proof.Gen.KernelIdeal
import proofs.«163087_j22780506538133_2_alg».proof.Proof.Gen.KernelIdeal.Skeleton
import proofs.«163087_j22780506538133_2_alg».proof.Proof.Gen.KernelIdeal.Launch
import proofs.«163087_j22780506538133_2_alg».proof.Proof.Gen.KernelIdeal.Points
import proofs.«163087_j22780506538133_2_alg».proof.Proof.Gen.KernelIdeal.Frame
import proofs.«163087_j22780506538133_2_alg».proof.Proof.Gen.ReferenceIdeal
import proofs.«163087_j22780506538133_2_alg».proof.Proof.Gen.Pre_finite_inputs
import proofs.«163087_j22780506538133_2_alg».proof.Proof.Gen.KernelIdeal.Value
import proofs.«163087_j22780506538133_2_alg».proof.Proof.Gen.ReferenceIdeal.Run
import proofs.«163087_j22780506538133_2_alg».proof.Proof.Gen.ReferenceIdeal.Read
import proofs.«163087_j22780506538133_2_alg».proof.Proof.RefValue
import proofs.«163087_j22780506538133_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading on the extended reals. -/
theorem preserves : Cert.preserves_Kernel_KernelIdeal := trivial

/-- Both programs end with the specification of their arguments in their result arrays, and the arguments agree. -/
theorem algebraic : Cert.algebraic_KernelIdeal_ReferenceIdeal := by
  intro m ρ m' ρ' _ hagree
  refine ⟨fun c => Cert.LoraSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.ref_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
